-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S1x64 : Shape := ⟨2, ![1, 64]⟩
abbrev S10000x64 : Shape := ⟨2, ![10000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 29
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x64, .f32⟩
  | .hbm, ⟨7, _⟩ => ⟨S100000x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S64x64, .f32⟩
  | .hbm, ⟨26, _⟩ => ⟨S64x64, .f32⟩
  | .hbm, ⟨27, _⟩ => ⟨S1x64, .f32⟩
  | .hbm, ⟨28, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  shapeCasts_S10000x64_S10000x64 : S10000x64.ShapeCasts S10000x64
  shapeCasts_S64x64_S64x64 : S64x64.ShapeCasts S64x64
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x128 : Shape := ⟨2, ![100000, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1x64, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S100000x128, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result array named.

  @main is four segments: a one-operation host stretch, the message transform's region, a twenty-operation host stretch
  (index normalisation, the row gather, the scatter-add, the weight's two halves, the bias row) and the update
  transform's region. Every weakly fair execution terminates, and every unscoped buffer then holds what the fold of the
  segments' contents (`W0 … W4`) says. Read at the result buffer this names the result; read at the arguments it says they
  are unchanged.
-/
import proofs.«166414_j72232759984909_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched. -/
theorem run_named : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Whole

end
-- ==== Proof.TileMsg.lean ====
/-
  One tile of the message transform, read at an index.

  The first kernel's body loads a tile of 10000 node rows `x0`, the 64×64 weight `w` and the bias as a 1×64 row
  `b`, and stores `x0 · w + b` (the operands pass through bf16 first, which is the identity on extended reals; the
  product accumulates into a zero tile). At row `p`, column `q` the stored value is
  `(∑ k, x0[p,k] · w[k,q]) + b[0,q]`.
-/
import proofs.«166414_j72232759984909_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left operand's index keeps the output's row. -/
theorem tileDot_lhs_row (i : S10000x64.Idx) (r : dot_S10000x64_S64x64_S10000x64_1_0_0_1_n_n.contr.Idx) :
    (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
/-- The right operand's index keeps the output's column. -/
theorem tileDot_rhs_col (i : S10000x64.Idx) (r : dot_S10000x64_S64x64_S10000x64_1_0_0_1_n_n.contr.Idx) :
    (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The tile's matrix product into a zero accumulator, at `(p, q)`: the sum over the contracted axis of the left
    operand's row `p` times the right operand's column `q`. -/
theorem tileDot_apply (a : FVec Ideal S10000x64 .bf16) (w : FVec Ideal S64x64 .bf16) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun ax => Fin.ext (by
      match ax with
      | ⟨0, _⟩ => exact tileDot_lhs_row _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun ax => Fin.ext (by
      match ax with
      | ⟨0, _⟩ => exact (dot_S10000x64_S64x64_S10000x64_1_0_0_1_n_n.rhsIdx_val_of_single rfl _ _).trans hk
      | ⟨1, _⟩ => exact tileDot_rhs_col _ _)
  rw [el, er]

/-- The bias row spread over the tile, at `(p, q)`: the row's entry at column `q`. -/
theorem biasRow_apply (b : Vec Ideal S1x64 .f32) (p : Fin 10000) (q : Fin 64) :
    broadcastTo S10000x64 (shapeCast S1x64 b shapeCasts_S1x64_S1x64) broadcasts_S1x64_S10000x64 (ix2 p q)
      = b (ix2 (0 : Fin 1) q) := by
  rw [shapeCast_self]
  exact broadcastTo_1b_ab_apply b broadcasts_S1x64_S10000x64 p q

/-- What the message kernel stores, at `(p, q)`. -/
theorem msgTile_apply (x0 : Vec Ideal S10000x64 .f32) (w : Vec Ideal S64x64 .f32) (b : Vec Ideal S1x64 .f32)
    (p : Fin 10000) (q : Fin 64) :
    k0_pay1 (F := Ideal) x0 w b (ix2 p q) = (∑ k : Fin 64, x0 (ix2 p k) * w (ix2 k q)) + b (ix2 (0 : Fin 1) q) := by
  unfold k0_pay1
  refine (addf_apply _ _ _).trans ?_
  refine congrArg₂ (· + ·) ?_ (biasRow_apply b p q)
  exact tileDot_apply _ _ p q

end Cert.KernelIdeal.Tile

end
-- ==== Proof.MsgArray.lean ====
/-
  The message transform's output array, as one function of the arrays the region finds.

  The first kernel runs over ten grid points; point `t` reads rows `10000·t … 10000·t + 9999` of the node features, the
  whole weight and the whole bias row, and writes the same rows of its output. Each output entry `(n, c)` is therefore
  `(∑ k, x[n,k] · W[k,c]) + b[0,c]` (`rowAffine`), whichever point wrote it, and the ten row blocks cover the array.
  Everything is stated at a parameter `V`: the buffers' contents when the region is entered.
-/
import proofs.«166414_j72232759984909_1_alg».proof.Proof.Gen.KernelIdeal.Frame
import proofs.«166414_j72232759984909_1_alg».proof.Proof.TileMsg

set_option maxRecDepth 16384

noncomputable section

open Idealize.ShloMosaic Idealize.ShloMosaic.TcCoe Idealize.SL.Sem
open Idealize.ShloMosaic.Pipeline (Dat)

namespace Cert.KernelIdeal.Msg

open Cert.KernelIdeal Cert.KernelIdeal.Gen Idealize.ShloMosaic.ValueIdx

/-- Every node row mapped through the weight and shifted by the bias row:
    entry `(n, c)` is `(∑ k, x[n,k] · W[k,c]) + b[0,c]`. -/
def rowAffine (X : S100000x64.Idx → EReal) (W : S64x64.Idx → EReal) (B : S1x64.Idx → EReal) : S100000x64.Idx → EReal :=
  fun i => (∑ k : Fin 64, X (ix2 (i 0) k) * W (ix2 k (i 1))) + B (ix2 (0 : Fin 1) (i 1))

/-- A tile whose rows are rows `r·10000 + p` of `X` stores, at `j`, `rowAffine` at the array index `i` that `j` is in
    that row block. -/
theorem tile_eq_rowAffine (X : S100000x64.Idx → EReal) (W : S64x64.Idx → EReal) (B : S1x64.Idx → EReal)
    (x0 : Vec Ideal S10000x64 .f32) (w : Vec Ideal S64x64 .f32) (b : Vec Ideal S1x64 .f32) (r : Nat)
    (hx : ∀ (p : Fin 10000) (k : Fin 64) (n : Fin 100000), n.val = r * 10000 + p.val → x0 (ix2 p k) = X (ix2 n k))
    (hw : ∀ k q : Fin 64, w (ix2 k q) = W (ix2 k q))
    (hb : ∀ q : Fin 64, b (ix2 (0 : Fin 1) q) = B (ix2 (0 : Fin 1) q))
    (j : S10000x64.Idx) (i : S100000x64.Idx) (hi0 : (i 0).val = r * 10000 + (j 0).val) (hi1 : (i 1).val = (j 1).val) :
    k0_pay1 (F := Ideal) x0 w b j = rowAffine X W B i := by
  obtain ⟨p, q, rfl⟩ : ∃ (p : Fin 10000) (q : Fin 64), j = ix2 p q := ⟨j 0, j 1, eq_ix2 j⟩
  obtain ⟨n, c, rfl⟩ : ∃ (n : Fin 100000) (c : Fin 64), i = ix2 n c := ⟨i 0, i 1, eq_ix2 i⟩
  have hc : c = q := Fin.ext hi1
  subst hc
  rw [Tile.msgTile_apply]
  unfold rowAffine
  refine congrArg₂ (· + ·) (Finset.sum_congr rfl fun k _ => ?_) (hb c)
  exact congrArg₂ (· * ·) (hx p k n hi0) (hw k c)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node features' and the output's blocks are row block `t`, the
    weight's and the bias row's the one block there is. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `rowAffine` of the arrays as the region finds them. -/
theorem flushed_eq (c : Dev nD) (t : Fin cfg0.N) :
    (dat0 V c).flushed 3 t = ((cfg0.win 3).blk t).view.read (Elt Ideal)
      (rowAffine (V c main_arg0) (V c main_arg2) (V c main_v0)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts t
  funext j
  show k0_pay1 (iblk0 V c 0 t) (iblk0 V c 1 t) (iblk0 V c 2 t) j
    = rowAffine (V c main_arg0) (V c main_arg2) (V c main_v0) (((cfg0.win 3).blk t).view.emb j)
  refine tile_eq_rowAffine (V c main_arg0) (V c main_arg2) (V c main_v0) (iblk0 V c 0 t) (iblk0 V c 1 t) (iblk0 V c 2 t)
    t.val ?_ ?_ ?_ j _ ?_ ?_
  · intro p k n hn
    show V c main_arg0 (((cfg0.win 0).blk t).view.emb (ix2 p k)) = V c main_arg0 (ix2 n k)
    refine congrArg (V c main_arg0) (funext fun a => Fin.ext ?_)
    match a with
    | ⟨0, _⟩ => show win0_0.index t (0 : Fin 2) * 10000 + 1 * p.val = n.val; omega
    | ⟨1, _⟩ => show win0_0.index t (1 : Fin 2) * 64 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  · intro q
    show V c main_v0 (((cfg0.win 2).blk t).view.emb (ix2 (0 : Fin 1) q)) = V c main_v0 (ix2 (0 : Fin 1) q)
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  · show win0_3.index t (0 : Fin 2) * 10000 + 1 * (j 0).val = t.val * 10000 + (j 0).val; omega
  · show win0_3.index t (1 : Fin 2) * 64 + 1 * (j 1).val = (j 1).val; omega

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v1).slice (win0_3.rect t)).set ↔ _
  rw [View.set_slice_whole, Rect.mem_set_unit]
  exact Iff.rfl

/-- Every row block is SOME point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- The ten row blocks cover the array: row `n` is in block `n / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE ARRAY after the region: `rowAffine` of the node features, the weight and the bias row as the region finds them. -/
theorem final (c : Dev nD) :
    (dat0 V c).arrAt 3 cfg0.N = rowAffine (V c main_arg0) (V c main_arg2) (V c main_v0) :=
  (dat0 V c).arrAt_eq_of_cover 3 _ (fun t _ => flushed_eq V c t) (cover)

end Cert.KernelIdeal.Msg

end
-- ==== Proof.TileUpd.lean ====
/-
  One tile of the update transform, read at an index.

  The second kernel's body loads a tile of 10000 node rows `x0`, the same rows `a0` of the aggregated messages, the two
  64×64 halves `w1`, `w2` of the update weight and the bias as a 1×64 row `b`, and stores
  `max (x0 · w1 + a0 · w2 + b) 0`. At row `p`, column `q` the stored value is
  `max (((∑ k, x0[p,k] · w1[k,q]) + (∑ k, a0[p,k] · w2[k,q])) + b[0,q]) 0`, the zero being the f32 word `0x00000000`.
-/
import proofs.«166414_j72232759984909_1_alg».proof.Proof.TileMsg

noncomputable section

namespace Cert.KernelIdeal.Tile

open Cert.KernelIdeal Cert.KernelIdeal.Gen Idealize.ShloMosaic Idealize.ShloMosaic.ValueIdx

/-- What the update kernel stores, at `(p, q)`. -/
theorem updTile_apply (x0 a0 : Vec Ideal S10000x64 .f32) (w1 w2 : Vec Ideal S64x64 .f32) (b : Vec Ideal S1x64 .f32)
    (p : Fin 10000) (q : Fin 64) :
    k1_pay1 (F := Ideal) x0 a0 w1 w2 b (ix2 p q)
      = max (((∑ k : Fin 64, x0 (ix2 p k) * w1 (ix2 k q)) + (∑ k : Fin 64, a0 (ix2 p k) * w2 (ix2 k q))) + b (ix2 (0 : Fin 1) q))
          (Ideal.ofBits .f32 0x00000000#32) := by
  unfold k1_pay1
  rw [shapeCast_self a0, shapeCast_self w1, shapeCast_self w2]
  refine (maximumf_apply _ _ _).trans ?_
  refine congrArg₂ max ?_ rfl
  refine (addf_apply _ _ _).trans ?_
  refine congrArg₂ (· + ·) ?_ (biasRow_apply b p q)
  refine (addf_apply _ _ _).trans ?_
  exact congrArg₂ (· + ·) (tileDot_apply _ _ p q) (tileDot_apply _ _ p q)

end Cert.KernelIdeal.Tile

end
-- ==== Proof.UpdArray.lean ====
/-
  The update transform's output array, as one function of the arrays the region finds.

  The second kernel runs over ten grid points; point `t` reads rows `10000·t … 10000·t + 9999` of the node features and
  of the aggregated messages, the two whole 64×64 halves of the update weight and the whole bias row, and writes the same
  rows of its output. Each output entry `(n, c)` is therefore
  `max (((∑ k, x[n,k] · W₁[k,c]) + (∑ k, a[n,k] · W₂[k,c])) + b[0,c]) 0` (`rowUpdate`), and the ten row blocks cover the
  array. Everything is stated at a parameter `V`: the buffers' contents when the region is entered.
-/
import proofs.«166414_j72232759984909_1_alg».proof.Proof.Gen.KernelIdeal.Frame
import proofs.«166414_j72232759984909_1_alg».proof.Proof.TileUpd

set_option maxRecDepth 16384

noncomputable section

open Idealize.ShloMosaic Idealize.ShloMosaic.TcCoe Idealize.SL.Sem
open Idealize.ShloMosaic.Pipeline (Dat)

namespace Cert.KernelIdeal.Upd

open Cert.KernelIdeal Cert.KernelIdeal.Gen Idealize.ShloMosaic.ValueIdx

/-- Every node's own row through the first half of the weight plus its aggregated row through the second half, shifted
    by the bias row and clipped below at zero (the f32 word `0x00000000`). -/
def rowUpdate (X A : S100000x64.Idx → EReal) (W1 W2 : S64x64.Idx → EReal) (B : S1x64.Idx → EReal) : S100000x64.Idx → EReal :=
  fun i => max (((∑ k : Fin 64, X (ix2 (i 0) k) * W1 (ix2 k (i 1))) + (∑ k : Fin 64, A (ix2 (i 0) k) * W2 (ix2 k (i 1))))
      + B (ix2 (0 : Fin 1) (i 1))) (Ideal.ofBits .f32 0x00000000#32)

/-- A tile whose rows are rows `r·10000 + p` of `X` and of `A` stores, at `j`, `rowUpdate` at the array index `i` that
    `j` is in that row block. -/
theorem tile_eq_rowUpdate (X A : S100000x64.Idx → EReal) (W1 W2 : S64x64.Idx → EReal) (B : S1x64.Idx → EReal)
    (x0 a0 : Vec Ideal S10000x64 .f32) (w1 w2 : Vec Ideal S64x64 .f32) (b : Vec Ideal S1x64 .f32) (r : Nat)
    (hx : ∀ (p : Fin 10000) (k : Fin 64) (n : Fin 100000), n.val = r * 10000 + p.val → x0 (ix2 p k) = X (ix2 n k))
    (ha : ∀ (p : Fin 10000) (k : Fin 64) (n : Fin 100000), n.val = r * 10000 + p.val → a0 (ix2 p k) = A (ix2 n k))
    (hw1 : ∀ k q : Fin 64, w1 (ix2 k q) = W1 (ix2 k q))
    (hw2 : ∀ k q : Fin 64, w2 (ix2 k q) = W2 (ix2 k q))
    (hb : ∀ q : Fin 64, b (ix2 (0 : Fin 1) q) = B (ix2 (0 : Fin 1) q))
    (j : S10000x64.Idx) (i : S100000x64.Idx) (hi0 : (i 0).val = r * 10000 + (j 0).val) (hi1 : (i 1).val = (j 1).val) :
    k1_pay1 (F := Ideal) x0 a0 w1 w2 b j = rowUpdate X A W1 W2 B i := by
  obtain ⟨p, q, rfl⟩ : ∃ (p : Fin 10000) (q : Fin 64), j = ix2 p q := ⟨j 0, j 1, eq_ix2 j⟩
  obtain ⟨n, c, rfl⟩ : ∃ (n : Fin 100000) (c : Fin 64), i = ix2 n c := ⟨i 0, i 1, eq_ix2 i⟩
  have hc : c = q := Fin.ext hi1
  subst hc
  rw [Tile.updTile_apply]
  unfold rowUpdate
  refine congrArg₂ max (congrArg₂ (· + ·) (congrArg₂ (· + ·) (Finset.sum_congr rfl fun k _ => ?_)
    (Finset.sum_congr rfl fun k _ => ?_)) (hb c)) rfl
  · exact congrArg₂ (· * ·) (hx p k n hi0) (hw1 k c)
  · exact congrArg₂ (· * ·) (ha p k n hi0) (hw2 k c)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node features', the aggregated messages' and the output's blocks
    are row block `t`, the weight halves' and the bias row's the one block there is. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of `rowUpdate` of the arrays as the region finds them. -/
theorem flushed_eq (c : Dev nD) (t : Fin cfg1.N) :
    (dat1 V c).flushed 5 t = ((cfg1.win 5).blk t).view.read (Elt Ideal)
      (rowUpdate (V c main_arg0) (V c main_v15) (V c main_v16) (V c main_v17) (V c main_v18)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9, e10, e11⟩ := idx_facts t
  funext j
  show k1_pay1 (iblk1 V c 0 t) (iblk1 V c 1 t) (iblk1 V c 2 t) (iblk1 V c 3 t) (iblk1 V c 4 t) j
    = rowUpdate (V c main_arg0) (V c main_v15) (V c main_v16) (V c main_v17) (V c main_v18) (((cfg1.win 5).blk t).view.emb j)
  refine tile_eq_rowUpdate (V c main_arg0) (V c main_v15) (V c main_v16) (V c main_v17) (V c main_v18)
    (iblk1 V c 0 t) (iblk1 V c 1 t) (iblk1 V c 2 t) (iblk1 V c 3 t) (iblk1 V c 4 t) t.val ?_ ?_ ?_ ?_ ?_ j _ ?_ ?_
  · intro p k n hn
    show V c main_arg0 (((cfg1.win 0).blk t).view.emb (ix2 p k)) = V c main_arg0 (ix2 n k)
    refine congrArg (V c main_arg0) (funext fun a => Fin.ext ?_)
    match a with
    | ⟨0, _⟩ => show win1_0.index t (0 : Fin 2) * 10000 + 1 * p.val = n.val; omega
    | ⟨1, _⟩ => show win1_0.index t (1 : Fin 2) * 64 + 1 * k.val = k.val; omega
  · intro p k n hn
    show V c main_v15 (((cfg1.win 1).blk t).view.emb (ix2 p k)) = V c main_v15 (ix2 n k)
    refine congrArg (V c main_v15) (funext fun a => Fin.ext ?_)
    match a with
    | ⟨0, _⟩ => show win1_1.index t (0 : Fin 2) * 10000 + 1 * p.val = n.val; omega
    | ⟨1, _⟩ => show win1_1.index t (1 : Fin 2) * 64 + 1 * k.val = k.val; omega
  · intro k q
    show V c main_v16 (((cfg1.win 2).blk t).view.emb (ix2 k q)) = V c main_v16 (ix2 k q)
    refine congrArg (V c main_v16) (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · intro k q
    show V c main_v17 (((cfg1.win 3).blk t).view.emb (ix2 k q)) = V c main_v17 (ix2 k q)
    refine congrArg (V c main_v17) (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · intro q
    show V c main_v18 (((cfg1.win 4).blk t).view.emb (ix2 (0 : Fin 1) q)) = V c main_v18 (ix2 (0 : Fin 1) q)
    refine congrArg (V c main_v18) (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega
  · show win1_5.index t (0 : Fin 2) * 10000 + 1 * (j 0).val = t.val * 10000 + (j 0).val; omega
  · show win1_5.index t (1 : Fin 2) * 64 + 1 * (j 1).val = (j 1).val; omega

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v19).slice (win1_5.rect t)).set ↔ _
  rw [View.set_slice_whole, Rect.mem_set_unit]
  exact Iff.rfl

/-- Every row block is SOME point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- The ten row blocks cover the array: row `n` is in block `n / 10000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE ARRAY after the region: `rowUpdate` of the node features, the aggregated messages, the weight halves and the
    bias row as the region finds them. -/
theorem final (c : Dev nD) :
    (dat1 V c).arrAt 5 cfg1.N = rowUpdate (V c main_arg0) (V c main_v15) (V c main_v16) (V c main_v17) (V c main_v18) :=
  (dat1 V c).arrAt_eq_of_cover 5 _ (fun t _ => flushed_eq V c t) (cover)

end Cert.KernelIdeal.Upd

end
-- ==== Proof.KernelValue.lean ====
/-
  The idealized kernel's result array as one function of the argument arrays.

  Reading the boundaries' contents back to the launch memory: the message transform's region finds the node features,
  the message weight and the message bias as a row, so it leaves `rowAffine x W_msg b_msg`; the host stretch after it
  gathers that array's rows at the source node numbers and adds them up at the destination node numbers
  (`aggregate`); the update transform's region finds the node features, that sum, the two halves of the update weight and
  the update bias as a row, so the result is `rowUpdate` of those.
-/
import proofs.«166414_j72232759984909_1_alg».proof.Proof.KernelRun
import proofs.«166414_j72232759984909_1_alg».proof.Proof.MsgArray
import proofs.«166414_j72232759984909_1_alg».proof.Proof.UpdArray
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat)

/-- The destination node numbers — row 0 of the edge list — as a column. -/
def dstCol (ei : (⟨S2x1600000, .i32⟩ : BufTy).Contents (Elt Ideal)) : (⟨S1600000x1, .i32⟩ : BufTy).Contents (Elt Ideal) :=
  broadcastInDim S1600000x1 ![0] bcast_S1600000_S1600000x1_0
    (shapeCast _ (extractStridedSlice S1x1600000 ![0, 0] ei slices_S2x1600000_S1x1600000_0_0) shapeCasts_S1x1600000_S1600000)

/-- Row 1 of the edge list: the source node numbers as written. -/
def srcRaw (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The source node numbers, a negative one counted from the end (100000 added), as a column. -/
def srcCol (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcRaw ei) (broadcastInDim S1600000 ![] bcast_S_S1600000 (constantI S_ 32 0#32)))
      (addi (srcRaw ei) (broadcastInDim S1600000 ![] bcast_S_S1600000 (constantI S_ 32 100000#32)))
      (srcRaw ei))

/-- Per destination node, the sum over its incoming edges of the source node's row of `M`: the rows of `M` gathered
    at the source numbers and scatter-added, from zero, at the destination numbers. -/
def aggregate (ei : (⟨S2x1600000, .i32⟩ : BufTy).Contents (Elt Ideal)) (M : S100000x64.Idx → EReal) : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (dstCol ei)
    (Host.gather gather_S100000x64_S1600000x1_S1600000x64_1_0_n_n_0_1_164 M (srcCol ei))

variable (m : (ℓ : Loc nD τ sig) → Buf (Elt Ideal) ℓ) (ρ : Dev nD → PrngReg)

/-! ## The message transform's region: what it finds and what it leaves -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_v0 (c : Dev nD) : (V1 m ρ c main_v0 : S1x64.Idx → EReal)
    = shapeCast S1x64 (m ((c : Thread nD τ).loc main_arg3) : S64.Idx → EReal) shapeCasts_S64_S1x64 := by
  show StableHlo.after hostOps0 (W0 m ρ c) (Proc.devRef .tc main_v0) = _
  after_results; rfl

/-- The message array as the second host stretch finds it. -/
theorem W2_v1 (c : Dev nD) : (W2 m ρ c (Proc.devRef .tc main_v1) : S100000x64.Idx → EReal)
    = Msg.rowAffine (m ((c : Thread nD τ).loc main_arg0)) (m ((c : Thread nD τ).loc main_arg2))
        (shapeCast S1x64 (m ((c : Thread nD τ).loc main_arg3) : S64.Idx → EReal) shapeCasts_S64_S1x64) := by
  refine (W2_arr m ρ c 3).trans ((Msg.final (V1 m ρ) c).trans ?_)
  rw [V1_arg0, V1_arg2, V1_v0]

/-! ## The host stretch between the regions: what it finds -/

theorem W2_arg0 (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (V1_arg0 m ρ c)))
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## The update transform's region: what it finds -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

/-- The aggregated messages: the message array's rows gathered at the sources and summed at the destinations. -/
theorem V3_v15 (c : Dev nD) : (V3 m ρ c main_v15 : S100000x64.Idx → EReal)
    = aggregate (m ((c : Thread nD τ).loc main_arg1))
        (Msg.rowAffine (m ((c : Thread nD τ).loc main_arg0)) (m ((c : Thread nD τ).loc main_arg2))
          (shapeCast S1x64 (m ((c : Thread nD τ).loc main_arg3) : S64.Idx → EReal) shapeCasts_S64_S1x64)) := by
  show StableHlo.after hostOps1 (W2 m ρ c) (Proc.devRef .tc main_v15) = _
  after_results
  rw [W2_arg1, W2_v1]
  rfl

/-- The update weight's rows 0…63. -/
theorem V3_v16 (c : Dev nD) : (V3 m ρ c main_v16 : S64x64.Idx → EReal)
    = extractStridedSlice S64x64 ![0, 0] (m ((c : Thread nD τ).loc main_arg4) : S128x64.Idx → EReal) slices_S128x64_S64x64_0_0 := by
  show StableHlo.after hostOps1 (W2 m ρ c) (Proc.devRef .tc main_v16) = _
  after_results
  rw [W2_arg4]
/-- The update weight's rows 64…127. -/
theorem V3_v17 (c : Dev nD) : (V3 m ρ c main_v17 : S64x64.Idx → EReal)
    = extractStridedSlice S64x64 ![64, 0] (m ((c : Thread nD τ).loc main_arg4) : S128x64.Idx → EReal) slices_S128x64_S64x64_64_0 := by
  show StableHlo.after hostOps1 (W2 m ρ c) (Proc.devRef .tc main_v17) = _
  after_results
  rw [W2_arg4]
/-- The update bias as a row. -/
theorem V3_v18 (c : Dev nD) : (V3 m ρ c main_v18 : S1x64.Idx → EReal)
    = shapeCast S1x64 (m ((c : Thread nD τ).loc main_arg5) : S64.Idx → EReal) shapeCasts_S64_S1x64 := by
  show StableHlo.after hostOps1 (W2 m ρ c) (Proc.devRef .tc main_v18) = _
  after_results
  rw [W2_arg5]
  rfl

/-! ## The result -/

/-- The layer's output as one function of its six arguments: every node's own features through the first half of the
    update weight, plus the sum over its incoming edges of the source's message (`x · W_msg + b_msg`) through the second
    half, plus the update bias, clipped below at zero. -/
def result (x : S100000x64.Idx → EReal) (ei : (⟨S2x1600000, .i32⟩ : BufTy).Contents (Elt Ideal))
    (Wm : S64x64.Idx → EReal) (bm : S64.Idx → EReal) (Wu : S128x64.Idx → EReal) (bu : S64.Idx → EReal) :
    S100000x64.Idx → EReal :=
  Upd.rowUpdate x (aggregate ei (Msg.rowAffine x Wm (shapeCast S1x64 bm shapeCasts_S64_S1x64)))
    (extractStridedSlice S64x64 ![0, 0] Wu slices_S128x64_S64x64_0_0)
    (extractStridedSlice S64x64 ![64, 0] Wu slices_S128x64_S64x64_64_0)
    (shapeCast S1x64 bu shapeCasts_S64_S1x64)

/-- The result buffer at the last boundary is `result` of the launch memory's arguments. -/
theorem W4_v19 (c : Dev nD) : (W4 m ρ c (Proc.devRef .tc main_v19) : S100000x64.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 5).trans ((Upd.final (V3 m ρ) c).trans ?_)
  rw [V3_arg0, V3_v15, V3_v16, V3_v17, V3_v18]
  rfl

/-- THE RUN, READ: every weakly fair execution of the idealized kernel terminates with the result array at `result` of
    the arguments, the arguments unchanged. -/
theorem run : θ_run defs (onTc (τ := τ) (main (F := Ideal))) ⟨m, fun _ => 0, ρ⟩ (fun r => ∀ c : Dev nD,
      r.2.mem ((c.tc : Thread nD τ).loc main_v19)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W4_v19 m ρ c), (h c).2⟩) (run_named m ρ)

end Cert.KernelIdeal.Whole

end
-- ==== Proof.LibGatherRows.lean ====
/-
  `stablehlo.gather` of whole rows of a matrix, read at an index.

  What `x[idx]` of a matrix `x : [N, D]` at a vector of row numbers lowers to: a gather with offset_dims `[1]`,
  collapsed_slice_dims `[0]`, start_index_map `[0]`, index_vector_dim `1` and slice_sizes `[1, D]` over the row numbers as
  a column `idx : [E, 1]`. Result element `(e, c)` is `x` at row `idx[e, 0]` — read as a signed integer and clamped into
  `[0, N − 1]`, as the gather clamps every start index — and column `c`. In particular the row read depends on `e` and
  on the indices only, never on the column or on the matrix: gathering rows commutes with any map applied to each row.
-/
import Idealize.ShloMosaic.Lib.ValueIdx

noncomputable section

namespace Idealize.ShloMosaic.GatherRows

open Idealize.ShloMosaic Idealize.ShloMosaic.ValueIdx

variable {α : Type}

/-- Those dimension numbers for an operand `[N, D]`, start indices `[E, 1]` and result `[E, D]`; their conditions `wf`
    are decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row that result row `e` reads: the start index `idx[e, 0]`, signed, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, c)`: the operand at row `rowOf idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowDims N D E wf) x idx (ix2 e c) = x (ix2 (rowOf hN idx e) c) := by
  unfold Host.gather
  refine congrArg x (funext fun a => Fin.ext ?_)
  match a with
  | ⟨0, _⟩ =>
    show (rowDims N D E wf).start (ix2 e c) idx 0 + (rowDims N D E wf).batchCoord (ix2 e c) 0
        + (rowDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e c) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e c) idx 1 + (rowDims N D E wf).batchCoord (ix2 e c) 1
        + (rowDims N D E wf).offCoord (ix2 e c) 1 = c.val
    rw [GatherDims.batchCoord_eq_zero _ _ _ List.not_mem_nil]
    have hs : (rowDims N D E wf).start (ix2 e c) idx 1 = 0 := by
      unfold GatherDims.start
      rw [dif_neg (show ¬ (1 : Fin 2) ∈ (rowDims N D E wf).startIndexMap from
        fun h => Nat.one_ne_zero (congrArg Fin.val (List.mem_singleton.mp h)))]
    have ho : (rowDims N D E wf).offCoord (ix2 e c) 1 = c.val := by
      unfold GatherDims.offCoord
      rw [dif_pos (show (1 : Fin 2) ∈ (rowDims N D E wf).sKept from (GatherDims.mem_sKept _ _).mpr
        ⟨fun h => Nat.one_ne_zero (congrArg Fin.val (List.mem_singleton.mp h)), List.not_mem_nil⟩)]
      rfl
    rw [hs, ho]; omega

end Idealize.ShloMosaic.GatherRows

end
-- ==== Proof.RefValue.lean ====
/-
  The reference's result is the kernel's function of the arguments.

  Two facts join the sides. (1) Gathering rows commutes with a map applied to every row: the reference gathers the
  source nodes' feature rows and maps each through `· W_msg + b_msg`, the kernel maps every node's row first and gathers
  the mapped rows; both read, for edge `e` and column `c`, `(∑ k, x[src e, k] · W_msg[k,c]) + b_msg[c]`, because a row gather
  reads row `src e` whatever the matrix and the column. The scatter-add that follows takes equal updates at the same
  indices from the same zero operand on both sides. (2) The reference contracts the concatenation `[x | aggr]` against the
  whole 128-row update weight; the sum over 128 splits into the sum over the first 64 (the `x` half against rows 0…63)
  plus the sum over the last 64 (the `aggr` half against rows 64…127), which is what the kernel adds. Addition of extended
  reals is commutative and associative, so no finiteness is used.
-/
import proofs.«166414_j72232759984909_1_alg».proof.Proof.Gen.ReferenceIdeal.Read
import proofs.«166414_j72232759984909_1_alg».proof.Proof.KernelValue
import proofs.«166414_j72232759984909_1_alg».proof.Proof.LibGatherRows
import Idealize.ShloMosaic.Lib.ValueLayout

set_option maxRecDepth 16384

noncomputable section

namespace Cert.ReferenceIdeal.Hand

open Cert.ReferenceIdeal Cert.ReferenceIdeal.Gen Cert.ReferenceIdeal.Read
open Idealize.ShloMosaic Idealize.ShloMosaic.ValueIdx Idealize.ShloMosaic.GatherRows

/-- A sum over 128 terms is the sum over the first 64 plus the sum over the last 64. -/
theorem sum_split (f : Fin 128 → EReal) :
    ∑ k : Fin 128, f k = (∑ k : Fin 64, f ⟨k.val, by omega⟩) + ∑ k : Fin 64, f ⟨64 + k.val, by omega⟩ :=
  Fin.sum_univ_add (a := 64) (b := 64) f

/-- The concatenation `[X | A]` along the columns, at a column below 64, is `X` there. -/
theorem concat_left (X A : S100000x64.Idx → EReal) (h : Shape.Concatenates [S100000x64, S100000x64] S100000x128 1)
    (n : Fin 100000) (k : Fin 64) (kk : Fin 128) (hk : kk.val = k.val) :
    concatenate S100000x128 1 [⟨S100000x64, X⟩, ⟨S100000x64, A⟩] h (ix2 n kk) = X (ix2 n k) :=
  concatenate_pair_apply_left 1 X A h (ix2 n kk) rfl (ix2 n k) (fun b => by
    match b with
    | ⟨0, _⟩ => rfl
    | ⟨1, _⟩ => exact hk.symm)

/-- The concatenation `[X | A]` along the columns, at column `64 + k`, is `A` at column `k`. -/
theorem concat_right (X A : S100000x64.Idx → EReal) (h : Shape.Concatenates [S100000x64, S100000x64] S100000x128 1)
    (n : Fin 100000) (k : Fin 64) (kk : Fin 128) (hk : kk.val = 64 + k.val) :
    concatenate S100000x128 1 [⟨S100000x64, X⟩, ⟨S100000x64, A⟩] h (ix2 n kk) = A (ix2 n k) :=
  concatenate_pair_apply_right 1 X A h (ix2 n kk) rfl rfl (ix2 n k) (fun b hb => by
    match b with
    | ⟨0, _⟩ => rfl
    | ⟨1, _⟩ => exact absurd rfl hb) (by show k.val + 64 = kk.val; omega)

/-- MESSAGES: the gathered feature rows mapped through the message weight and shifted by the message bias are the
    mapped rows, gathered. -/
theorem messages_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (hb : S64.ShapeCasts S1x64) :
    val_main_v14 (F := Ideal) x0 x1 x2 x3
      = Host.gather gather_S100000x64_S1600000x1_S1600000x64_1_0_n_n_0_1_164
          (Cert.KernelIdeal.Msg.rowAffine x0 x2 (shapeCast S1x64 x3 hb)) (val_main_v9 (F := Ideal) x1) := by
  funext j
  obtain ⟨e, c, rfl⟩ : ∃ (e : Fin 1600000) (c : Fin 64), j = ix2 e c := ⟨j 0, j 1, eq_ix2 j⟩
  refine Eq.trans ?_ (gather_rows_apply (N := 100000) (D := 64) (E := 1600000) (by decide) _ _ _ e c).symm
  rw [val_main_v14_apply, val_main_v11_apply, val_main_v13_apply, val_main_v12_apply]
  unfold Cert.KernelIdeal.Msg.rowAffine
  refine congrArg₂ (· + ·) (Finset.sum_congr rfl fun k _ => ?_) ?_
  · have el : lidx_main_v11 (ix2 e c) k = ix2 e k := funext fun a => by
      match a with
      | ⟨0, _⟩ => rfl
      | ⟨1, _⟩ => rfl
    have er : ridx_main_v11 (ix2 e c) k = ix2 k c := funext fun a => by
      match a with
      | ⟨0, _⟩ => rfl
      | ⟨1, _⟩ => rfl
    rw [el, er]
    refine congrArg (· * x2 (ix2 k c)) ?_
    exact gather_rows_apply (N := 100000) (D := 64) (E := 1600000) (by decide) _ x0 (val_main_v9 (F := Ideal) x1) e k
  · refine Eq.trans ?_ (shapeCast_a_1a_apply x3 hb 0 c).symm
    refine congrArg x3 (funext fun a => ?_)
    match a with
    | ⟨0, _⟩ => rfl

/-- THE REFERENCE IS THE KERNEL'S FUNCTION: its result stage, at Ideal, is `result` of the same arguments. -/
theorem ref_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S128x64, .f32⟩ : BufTy).Contents (Elt Ideal)) (x5 : (⟨S64, .f32⟩ : BufTy).Contents (Elt Ideal)) :
    val_main_v23 (F := Ideal) x0 x1 x2 x3 x4 x5 = Cert.KernelIdeal.Whole.result x0 x1 x2 x3 x4 x5 := by
  unfold Cert.KernelIdeal.Whole.result
  have hA : val_main_v17 (F := Ideal) x0 x1 x2 x3
      = Cert.KernelIdeal.Whole.aggregate x1 (Cert.KernelIdeal.Msg.rowAffine x0 x2
          (shapeCast Cert.KernelIdeal.S1x64 x3 Cert.KernelIdeal.Facts₀.shapeCasts_S64_S1x64)) := by
    unfold val_main_v17 Cert.KernelIdeal.Whole.aggregate
    rw [messages_eq x0 x1 x2 x3 Cert.KernelIdeal.Facts₀.shapeCasts_S64_S1x64]
    rfl
  rw [← hA]
  funext i
  obtain ⟨n, c, rfl⟩ : ∃ (n : Fin 100000) (c : Fin 64), i = ix2 n c := ⟨i 0, i 1, eq_ix2 i⟩
  rw [val_main_v23_apply, val_main_v22_apply, val_main_v19_apply, val_main_v21_apply, val_main_v20_apply,
    val_main_call0_v0_apply, val_main_call0_cst_apply]
  unfold Cert.KernelIdeal.Upd.rowUpdate
  refine congrArg₂ max (congrArg₂ (· + ·) ?_ ?_) rfl
  · rw [sum_split]
    refine congrArg₂ (· + ·) (Finset.sum_congr rfl fun k _ => ?_) (Finset.sum_congr rfl fun k _ => ?_)
    · have el : lidx_main_v19 (ix2 n c) ⟨k.val, by omega⟩ = ix2 n (⟨k.val, by omega⟩ : Fin 128) := funext fun a => by
        match a with
        | ⟨0, _⟩ => rfl
        | ⟨1, _⟩ => rfl
      rw [el]
      unfold val_main_v18
      rw [concat_left _ _ _ n k ⟨k.val, by omega⟩ rfl]
      refine congrArg (x0 (ix2 n k) * ·) ?_
      refine Eq.trans ?_ (slice2_axis0_apply 0 x4 _ k c ⟨k.val, by omega⟩ (by show k.val = 0 + k.val; omega)).symm
      refine congrArg x4 (funext fun a => ?_)
      match a with
      | ⟨0, _⟩ => rfl
      | ⟨1, _⟩ => rfl
    · have el : lidx_main_v19 (ix2 n c) ⟨64 + k.val, by omega⟩ = ix2 n (⟨64 + k.val, by omega⟩ : Fin 128) := funext fun a => by
        match a with
        | ⟨0, _⟩ => rfl
        | ⟨1, _⟩ => rfl
      rw [el]
      unfold val_main_v18
      rw [concat_right _ _ _ n k ⟨64 + k.val, by omega⟩ rfl]
      refine congrArg (val_main_v17 (F := Ideal) x0 x1 x2 x3 (ix2 n k) * ·) ?_
      refine Eq.trans ?_ (slice2_axis0_apply 64 x4 _ k c ⟨64 + k.val, by omega⟩ rfl).symm
      refine congrArg x4 (funext fun a => ?_)
      match a with
      | ⟨0, _⟩ => rfl
      | ⟨1, _⟩ => rfl
  · refine Eq.trans ?_ (shapeCast_a_1a_apply x5 _ 0 c).symm
    refine congrArg x5 (funext fun a => ?_)
    match a with
    | ⟨0, _⟩ => rfl

end Cert.ReferenceIdeal.Hand

end
-- ==== Proof.lean ====
/-
  A message-passing layer on a graph of 100000 nodes and 1600000 edges, kernel against reference, over the extended
  reals.

  Both programs compute, for node `n` and output column `c`,
    `max ((∑ k<64, x[n,k] · W_upd[k,c]) + (∑ k<64, aggr[n,k] · W_upd[64+k,c]) + b_upd[c]) 0`,
  where `aggr[n,·]` is the sum, over the edges whose destination is `n`, of the source node's message row
  `x[src,·] · W_msg + b_msg`. The kernel maps every node's row through the message weight once (a tiled matrix product
  on ten row blocks) and gathers the mapped rows; the reference gathers feature rows and maps them edge by edge. A row
  gather reads the same row whatever the matrix, so the scatter-add receives equal updates at equal indices. The kernel
  then adds two 64-term products where the reference contracts the concatenation `[x | aggr]` against all 128 rows of the
  update weight: one sum split in two. Changes of float format are the identity, and only commutativity and associativity of
  addition are used, so the inputs' finiteness is never opened.

  The modules: `TileMsg` / `TileUpd` read each kernel body's stored tile at an index; `MsgArray` / `UpdArray` turn the ten
  row blocks into whole arrays; `KernelRun` restates the kernel's run with its result named and `KernelValue` reads that
  result back to the arguments (`result`); `LibGatherRows` reads a row gather at an index; `RefValue` shows the
  reference's result stage is `result`.
-/
import proofs.«166414_j72232759984909_1_alg».proof.Defs
import proofs.«166414_j72232759984909_1_alg».proof.Proof.Gen.Kernel
import proofs.«166414_j72232759984909_1_alg».proof.Proof.Gen.Kernel.Frame
import proofs.«166414_j72232759984909_1_alg».proof.Proof.Gen.KernelIdeal
import proofs.«166414_j72232759984909_1_alg».proof.Proof.Gen.KernelIdeal.Frame
import proofs.«166414_j72232759984909_1_alg».proof.Proof.Gen.ReferenceIdeal
import proofs.«166414_j72232759984909_1_alg».proof.Proof.Gen.Pre_finite_inputs
import proofs.«166414_j72232759984909_1_alg».proof.Proof.Gen.ReferenceIdeal.Run
import proofs.«166414_j72232759984909_1_alg».proof.Proof.Gen.ReferenceIdeal.Read
import proofs.«166414_j72232759984909_1_alg».proof.Proof.KernelValue
import proofs.«166414_j72232759984909_1_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the idealized reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result array at `result` of those
    arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Hand.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
